-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x15 : Shape := ⟨2, ![2048, 15]⟩
abbrev S15x49152 : Shape := ⟨2, ![15, 49152]⟩
abbrev S49152 : Shape := ⟨1, ![49152]⟩
abbrev S49152x15 : Shape := ⟨2, ![49152, 15]⟩
abbrev S_ : Shape := ⟨0, ![]⟩

class Facts : Prop where
  bcast_S_S2048x15 : S_.BroadcastsInDim S2048x15 (![] : Fin 0 → Fin S2048x15.rank)
  reducesTo_S2048x15_S_d0_1 : S2048x15.ReducesTo [0, 1] S_
  h_S_ : 0 < S_.numel
  bcast_S_S15x49152 : S_.BroadcastsInDim S15x49152 (![] : Fin 0 → Fin S15x49152.rank)
  reducesTo_S15x49152_S_d0_1 : S15x49152.ReducesTo [0, 1] S_
  bcast_S_S49152 : S_.BroadcastsInDim S49152 (![] : Fin 0 → Fin S49152.rank)
  reducesTo_S49152_S_d0 : S49152.ReducesTo [0] S_
  bcast_S_S49152x15 : S_.BroadcastsInDim S49152x15 (![] : Fin 0 → Fin S49152x15.rank)
  reducesTo_S49152x15_S_d0_1 : S49152x15.ReducesTo [0, 1] S_

variable [Facts]

def fn_part1 {F : FTy → Type} [FloatOps F] (main_v13 : IVec S_ 1) (main_v16 : IVec S49152x15 1) : IVec S_ 1 :=
  let main_c_5 : IVec S_ 1 := constantI S_ 1 1#1
  let main_v17 : IVec S_ 1 := (fun x v => Host.reduce IntOp.andi x v reducesTo_S49152x15_S_d0_1 h_S_) main_v16 main_c_5
  let main_v18 : IVec S_ 1 := andi main_v13 main_v17
  main_v18

def fn {F : FTy → Type} [FloatOps F] (main_arg0 : FVec F S2048x15 .f32) (main_arg1 : FVec F S15x49152 .f32) (main_arg2 : FVec F S49152 .f32) (main_arg3 : FVec F S49152x15 .f32) : IVec S_ 1 :=
  let main_v0 : FVec F S2048x15 .f32 := Host.absf main_arg0
  let main_cst : FVec F S_ .f32 := constant S_ .f32 0x7F800000#32
  let main_v1 : FVec F S2048x15 .f32 := broadcastInDim S2048x15 ![] bcast_S_S2048x15 main_cst
  let main_v2 : IVec S2048x15 1 := cmpf .olt main_v0 main_v1
  let main_c : IVec S_ 1 := constantI S_ 1 1#1
  let main_v3 : IVec S_ 1 := (fun x v => Host.reduce IntOp.andi x v reducesTo_S2048x15_S_d0_1 h_S_) main_v2 main_c
  let main_v4 : FVec F S15x49152 .f32 := Host.absf main_arg1
  let main_cst_0 : FVec F S_ .f32 := constant S_ .f32 0x7F800000#32
  let main_v5 : FVec F S15x49152 .f32 := broadcastInDim S15x49152 ![] bcast_S_S15x49152 main_cst_0
  let main_v6 : IVec S15x49152 1 := cmpf .olt main_v4 main_v5
  let main_c_1 : IVec S_ 1 := constantI S_ 1 1#1
  let main_v7 : IVec S_ 1 := (fun x v => Host.reduce IntOp.andi x v reducesTo_S15x49152_S_d0_1 h_S_) main_v6 main_c_1
  let main_v8 : IVec S_ 1 := andi main_v3 main_v7
  let main_v9 : FVec F S49152 .f32 := Host.absf main_arg2
  let main_cst_2 : FVec F S_ .f32 := constant S_ .f32 0x7F800000#32
  let main_v10 : FVec F S49152 .f32 := broadcastInDim S49152 ![] bcast_S_S49152 main_cst_2
  let main_v11 : IVec S49152 1 := cmpf .olt main_v9 main_v10
  let main_c_3 : IVec S_ 1 := constantI S_ 1 1#1
  let main_v12 : IVec S_ 1 := (fun x v => Host.reduce IntOp.andi x v reducesTo_S49152_S_d0 h_S_) main_v11 main_c_3
  let main_v13 : IVec S_ 1 := andi main_v8 main_v12
  let main_v14 : FVec F S49152x15 .f32 := Host.absf main_arg3
  let main_cst_4 : FVec F S_ .f32 := constant S_ .f32 0x7F800000#32
  let main_v15 : FVec F S49152x15 .f32 := broadcastInDim S49152x15 ![] bcast_S_S49152x15 main_cst_4
  let main_v16 : IVec S49152x15 1 := cmpf .olt main_v14 main_v15
  fn_part1 (F := F) main_v13 main_v16
-- ==== Kernel.lean ====
abbrev S2048x15 : Shape := ⟨2, ![2048, 15]⟩
abbrev S15x49152 : Shape := ⟨2, ![15, 49152]⟩
abbrev S49152 : Shape := ⟨1, ![49152]⟩
abbrev S49152x15 : Shape := ⟨2, ![49152, 15]⟩
abbrev S1x49152 : Shape := ⟨2, ![1, 49152]⟩
abbrev S2048x49152 : Shape := ⟨2, ![2048, 49152]⟩
abbrev S512x15 : Shape := ⟨2, ![512, 15]⟩
abbrev S1x4096 : Shape := ⟨2, ![1, 4096]⟩
abbrev S512x4096 : Shape := ⟨2, ![512, 4096]⟩
abbrev S15x4096 : Shape := ⟨2, ![15, 4096]⟩

abbrev nBuf : Space → Nat
  | .hbm => 9
  | .vmem => 7
  | .smem => 0
  | _ => 0

abbrev bufTy : (tb : Table) → Fin (tcTables nBuf tb) → BufTy
  | .hbm, ⟨0, _⟩ => ⟨S2048x15, .f32⟩
  | .hbm, ⟨1, _⟩ => ⟨S15x49152, .f32⟩
  | .hbm, ⟨2, _⟩ => ⟨S49152, .f32⟩
  | .hbm, ⟨3, _⟩ => ⟨S49152x15, .f32⟩
  | .hbm, ⟨4, _⟩ => ⟨S15x49152, .f32⟩
  | .hbm, ⟨5, _⟩ => ⟨S15x49152, .f32⟩
  | .hbm, ⟨6, _⟩ => ⟨S15x49152, .bf16⟩
  | .hbm, ⟨7, _⟩ => ⟨S1x49152, .f32⟩
  | .hbm, ⟨8, _⟩ => ⟨S2048x49152, .f32⟩
  | .local _ .vmem, ⟨0, _⟩ => ⟨S512x15, .f32⟩
  | .local _ .vmem, ⟨1, _⟩ => ⟨S512x15, .f32⟩
  | .local _ .vmem, ⟨2, _⟩ => ⟨S15x49152, .bf16⟩
  | .local _ .vmem, ⟨3, _⟩ => ⟨S1x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S2048x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let arg1 : BitVec 32 := BitVec.ofNat 32 (i 1).val
  let c4096_i32 : BitVec 32 := 4096#32
  let v0 : BitVec 32 := Scalar.muli arg1 c4096_i32
  v0
def k0_off1 (i : grid0.Coords) : Fin 2 → Nat :=
  let c0_1 : Index := 0#32
  let arg1 : BitVec 32 := BitVec.ofNat 32 (i 1).val
  let c4096_i32 : BitVec 32 := 4096#32
  let v0 : BitVec 32 := Scalar.muli arg1 c4096_i32
  let v1 : BitVec 32 := v0
  let v4 : Index := Scalar.indexCast v1
  ![0, v4.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S15x49152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S49152x15_S15x49152_1_0 : S49152x15.Transposes [1, 0] S15x49152
  bitsLt_bf16_f32 : FTy.bits .bf16 < FTy.bits .f32
  shapeCasts_S49152_S1x49152 : S49152.ShapeCasts S1x49152
  inb_S512x15_S512x15_0_0 : ∀ a, (![0, 0] : Fin 2 → Nat) a + S512x15.size a ≤ S512x15.size a
  h_S512x15 : 0 < S512x15.numel
  h_S15x4096 : 0 < S15x4096.numel
  shapeCasts_S15x4096_S15x4096 : S15x4096.ShapeCasts S15x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x15_S15x4096_S512x4096_1_0_0_1_n_n_wf : DotDims.WF S512x15 S15x4096 S512x4096 [1] [0] [0] [1] [] []
  hrank0 : 0 < grid0.rank
  k0_mult1_dvd : ∀ i : grid0.Coords, 128 ∣ (k0_mult1 i).toNat
  k0_off1_inb : ∀ i : grid0.Coords, ∀ a, (k0_off1 i) a + S15x4096.size a ≤ S15x49152.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x15.size a ≤ S2048x15.size a
  hwx0_0 : ∀ i : grid0.Coords, EltTy.bits .f32 = 32 ∨ (Rect.block (s := S2048x15) S512x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x49152.size a ≤ S15x49152.size a
  hwx0_1 : ∀ i : grid0.Coords, EltTy.bits .bf16 = 32 ∨ (Rect.block (s := S15x49152) S15x49152.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x49152.size a
  hwx0_2 : ∀ i : grid0.Coords, EltTy.bits .f32 = 32 ∨ (Rect.block (s := S1x49152) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S2048x49152.size a
  hwx0_3 : ∀ i : grid0.Coords, EltTy.bits .f32 = 32 ∨ (Rect.block (s := S2048x49152) S512x4096.size (cc0_transform_3 i) (hinb0_3 i)).WholeWords (EltTy.packing .f32)

variable [Facts₀]

def dot_S512x15_S15x4096_S512x4096_1_0_0_1_n_n : DotDims S512x15 S15x4096 S512x4096 where
  lhsContracting := [1]
  rhsContracting := [0]
  lhsNonContracting := [0]
  rhsNonContracting := [1]
  lhsBatch := []
  rhsBatch := []
  wf := dot_S512x15_S15x4096_S512x4096_1_0_0_1_n_n_wf

abbrev win0_0 : Pipeline.Window sig grid0 :=
  Pipeline.Window.ofSpec (Memref.whole main_arg0) S512x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S15x49152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x15 : Shape := ⟨2, ![2048, 15]⟩
abbrev S15x49152 : Shape := ⟨2, ![15, 49152]⟩
abbrev S49152 : Shape := ⟨1, ![49152]⟩
abbrev S49152x15 : Shape := ⟨2, ![49152, 15]⟩
abbrev S2048x49152 : Shape := ⟨2, ![2048, 49152]⟩
abbrev S1x49152 : Shape := ⟨2, ![1, 49152]⟩

abbrev nBuf : Space → Nat
  | .hbm => 10
  | .vmem => 0
  | .smem => 0
  | _ => 0

abbrev bufTy : (tb : Table) → Fin (tcTables nBuf tb) → BufTy
  | .hbm, ⟨0, _⟩ => ⟨S2048x15, .f32⟩
  | .hbm, ⟨1, _⟩ => ⟨S15x49152, .f32⟩
  | .hbm, ⟨2, _⟩ => ⟨S49152, .f32⟩
  | .hbm, ⟨3, _⟩ => ⟨S49152x15, .f32⟩
  | .hbm, ⟨4, _⟩ => ⟨S15x49152, .f32⟩
  | .hbm, ⟨5, _⟩ => ⟨S15x49152, .f32⟩
  | .hbm, ⟨6, _⟩ => ⟨S2048x49152, .f32⟩
  | .hbm, ⟨7, _⟩ => ⟨S1x49152, .f32⟩
  | .hbm, ⟨8, _⟩ => ⟨S2048x49152, .f32⟩
  | .hbm, ⟨9, _⟩ => ⟨S2048x49152, .f32⟩
  | _, _ => ⟨S2048x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S49152x15_S15x49152_1_0 : S49152x15.Transposes [1, 0] S15x49152
  bcast_S49152_S1x49152_1 : S49152.BroadcastsInDim S1x49152 (![1] : Fin 1 → Fin S1x49152.rank)
  bcast_S1x49152_S2048x49152_0_1 : S1x49152.BroadcastsInDim S2048x49152 (![0, 1] : Fin 2 → Fin S2048x49152.rank)
  dot_S2048x15_S15x49152_S2048x49152_1_0_0_1_n_n_wf : DotDims.WF S2048x15 S15x49152 S2048x49152 [1] [0] [0] [1] [] []

variable [Facts₀]

def dot_S2048x15_S15x49152_S2048x49152_1_0_0_1_n_n : DotDims S2048x15 S15x49152 S2048x49152 where
  lhsContracting := [1]
  rhsContracting := [0]
  lhsNonContracting := [0]
  rhsNonContracting := [1]
  lhsBatch := []
  rhsBatch := []
  wf := dot_S2048x15_S15x49152_S2048x49152_1_0_0_1_n_n_wf

class Facts : Prop extends Facts₀ where

variable [Facts]
-- ==== Proof.MaskedDense.lean ====
/-
  The function both programs compute, on the extended reals: a dense layer whose weight matrix is masked entry by
  entry. For a batch row r < 2048, an output unit u < 49152 and the fifteen input features k,

      out[r, u] = (Σ_k x[r, k] · (w[k, u] · mask[u, k])) + b[u].

  The mask is stored unit-major ([49152, 15]) and is read transposed; the masked weight w[k, u] · mask[u, k] is formed
  once, before the product, by both programs, so the two sides agree term by term and no law of the extended reals
  beyond 0 + a = a is needed to join them.
-/
import Idealize.ShloMosaic.PureOps.Ideal
import Idealize.ShloMosaic.Lib.ValueIdx

noncomputable section

open scoped BigOperators

namespace Cert.MaskedDense

open Idealize.ShloMosaic Idealize.ShloMosaic.ValueIdx

/-- The masked weight at feature k and unit u: w[k, u] times the mask's entry (u, k). -/
def maskedWeight (w : FVec Ideal ⟨2, ![15, 49152]⟩ .f32) (mask : FVec Ideal ⟨2, ![49152, 15]⟩ .f32)
    (k : Fin 15) (u : Fin 49152) : EReal :=
  w (ix2 k u) * mask (ix2 u k)

/-- The layer's output at row r and unit u: row r of the inputs against column u of the masked weights, plus the unit's bias. -/
def entry (x : FVec Ideal ⟨2, ![2048, 15]⟩ .f32) (w : FVec Ideal ⟨2, ![15, 49152]⟩ .f32)
    (b : FVec Ideal ⟨1, ![49152]⟩ .f32) (mask : FVec Ideal ⟨2, ![49152, 15]⟩ .f32)
    (r : Fin 2048) (u : Fin 49152) : EReal :=
  (∑ k : Fin 15, x (ix2 r k) * maskedWeight w mask k u) + b (ix1 u)

/-- The layer's output as an array. -/
def out (x : FVec Ideal ⟨2, ![2048, 15]⟩ .f32) (w : FVec Ideal ⟨2, ![15, 49152]⟩ .f32)
    (b : FVec Ideal ⟨1, ![49152]⟩ .f32) (mask : FVec Ideal ⟨2, ![49152, 15]⟩ .f32) :
    FVec Ideal ⟨2, ![2048, 49152]⟩ .f32 :=
  fun i => entry x w b mask ⟨(i 0).val, (i 0).isLt⟩ ⟨(i 1).val, (i 1).isLt⟩

theorem out_apply (x : FVec Ideal ⟨2, ![2048, 15]⟩ .f32) (w : FVec Ideal ⟨2, ![15, 49152]⟩ .f32)
    (b : FVec Ideal ⟨1, ![49152]⟩ .f32) (mask : FVec Ideal ⟨2, ![49152, 15]⟩ .f32) (r : Fin 2048) (u : Fin 49152) :
    out x w b mask (ix2 r u) = entry x w b mask r u := rfl

end Cert.MaskedDense

end
-- ==== Proof.RefValue.lean ====
/-
  The reference's result, read one element at a time, is the masked dense layer of MaskedDense.lean.
  Element (r, u) of jnp's  inputs @ (w * mask.T) + b  is the sum over the fifteen features k of inputs[r, k] times the
  masked weight at (k, u) — itself w[k, u] times the transposed mask's entry, mask[u, k] — plus b[u], the bias having
  been spread first along a new leading axis and then down the 2048 rows. Nothing is rearranged: the reference's
  stages, composed, are the specification's formula literally, once the stages' index functions are written by
  coordinates.
-/
import proofs.«102329_j25434796327642_2_alg».proof.Proof.Gen.ReferenceIdeal.Read
import proofs.«102329_j25434796327642_2_alg».proof.Proof.MaskedDense

noncomputable section

open scoped BigOperators

namespace Cert.ReferenceIdeal.RefValue

open Cert.ReferenceIdeal Cert.ReferenceIdeal.Read Idealize.ShloMosaic Idealize.ShloMosaic.ValueIdx

/-- The product's left operand is read at (r, k). -/
theorem lidx_eq (r : Fin 2048) (u : Fin 49152) (k : Fin 15) : lidx_main_v2 (ix2 r u) k = ix2 r k :=
  funext fun a => by match a with | ⟨0, _⟩ => rfl | ⟨1, _⟩ => rfl

/-- The product's right operand is read at (k, u). -/
theorem ridx_eq (r : Fin 2048) (u : Fin 49152) (k : Fin 15) : ridx_main_v2 (ix2 r u) k = ix2 k u :=
  funext fun a => by match a with | ⟨0, _⟩ => rfl | ⟨1, _⟩ => rfl

/-- The transposed mask at (k, u) is the mask at (u, k). -/
theorem tidx_eq (k : Fin 15) (u : Fin 49152) : idx_main_v0 (ix2 k u) = ix2 u k :=
  funext fun a => by match a with | ⟨0, _⟩ => rfl | ⟨1, _⟩ => rfl

/-- The bias spread over the rows is read at u. -/
theorem bidx_eq (r : Fin 2048) (u : Fin 49152) : idx_main_v3 (idx_main_v4 (ix2 r u)) = ix1 u :=
  funext fun a => by match a with | ⟨0, _⟩ => rfl

/-- The reference's last stage at (r, u). -/
theorem result_apply (x0 : (⟨S2048x15, .f32⟩ : BufTy).Contents (Elt Ideal)) (x1 : (⟨S15x49152, .f32⟩ : BufTy).Contents (Elt Ideal))
    (x2 : (⟨S49152, .f32⟩ : BufTy).Contents (Elt Ideal)) (x3 : (⟨S49152x15, .f32⟩ : BufTy).Contents (Elt Ideal))
    (r : Fin 2048) (u : Fin 49152) :
    val_main_v5 (F := Ideal) x0 x1 x2 x3 (ix2 r u) = Cert.MaskedDense.entry x0 x1 x2 x3 r u := by
  rw [val_main_v5_apply, val_main_v2_apply, val_main_v4_apply, val_main_v3_apply, bidx_eq]
  show (∑ k : Fin 15, x0 (lidx_main_v2 (ix2 r u) k) * val_main_v1 (F := Ideal) x1 x3 (ridx_main_v2 (ix2 r u) k)) + x2 (ix1 u)
    = (∑ k : Fin 15, x0 (ix2 r k) * Cert.MaskedDense.maskedWeight x1 x3 k u) + x2 (ix1 u)
  refine congrArg (· + x2 (ix1 u)) (Finset.sum_congr rfl fun k _ => ?_)
  rw [lidx_eq, ridx_eq, val_main_v1_apply, val_main_v0_apply, tidx_eq]
  rfl

/-- The reference's last stage is the masked dense layer of its four arguments. -/
theorem result_eq (x0 : (⟨S2048x15, .f32⟩ : BufTy).Contents (Elt Ideal)) (x1 : (⟨S15x49152, .f32⟩ : BufTy).Contents (Elt Ideal))
    (x2 : (⟨S49152, .f32⟩ : BufTy).Contents (Elt Ideal)) (x3 : (⟨S49152x15, .f32⟩ : BufTy).Contents (Elt Ideal)) :
    val_main_v5 (F := Ideal) x0 x1 x2 x3 = Cert.MaskedDense.out x0 x1 x2 x3 := by
  funext i
  obtain ⟨r, u, rfl⟩ : ∃ (r : Fin 2048) (u : Fin 49152), i = ix2 r u := ⟨i 0, i 1, eq_ix2 i⟩
  rw [result_apply, Cert.MaskedDense.out_apply]

end Cert.ReferenceIdeal.RefValue

end
-- ==== Proof.Tile.lean ====
/-
  One tile of the kernel, read one element at a time on the extended reals.
  At a grid point the body holds a 512-row block x of the inputs, a 15 × 4096 column chunk w of the masked weights and
  the matching 1 × 4096 chunk b of the bias row, and stores  x · w + b  (the bias row repeated down the 512 rows); the
  product is accumulated from zero. So element (p, q) of what it stores is

      (Σ_k x[p, k] · w[k, q]) + b[0, q],      k over the fifteen features:

  the narrowing of x to the matrix unit's input format changes nothing here, the product into a zero accumulator is the
  plain sum (0 + a = a), and the two re-shapings in the body are between equal shapes.
-/
import proofs.«102329_j25434796327642_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The tile product's operand indices, by coordinates -/

theorem lhs_row (j : S512x4096.Idx) (κ : dot_S512x15_S15x4096_S512x4096_1_0_0_1_n_n.contr.Idx) : (dot_S512x15_S15x4096_S512x4096_1_0_0_1_n_n.lhsIdx j κ 0).val = (j 0).val := by
  unfold DotDims.lhsIdx
  rw [dif_neg (show ¬(0 : Fin S512x15.rank) ∈ dot_S512x15_S15x4096_S512x4096_1_0_0_1_n_n.lhsBatch by decide), dif_pos (show (0 : Fin S512x15.rank) ∈ dot_S512x15_S15x4096_S512x4096_1_0_0_1_n_n.lhsNonContracting by decide)]
  rfl

theorem lhs_feature (j : S512x4096.Idx) (κ : dot_S512x15_S15x4096_S512x4096_1_0_0_1_n_n.contr.Idx) : (dot_S512x15_S15x4096_S512x4096_1_0_0_1_n_n.lhsIdx j κ 1).val = (κ ⟨0, by decide⟩).val :=
  dot_S512x15_S15x4096_S512x4096_1_0_0_1_n_n.lhsIdx_val_of_single rfl j κ

theorem rhs_feature (j : S512x4096.Idx) (κ : dot_S512x15_S15x4096_S512x4096_1_0_0_1_n_n.contr.Idx) : (dot_S512x15_S15x4096_S512x4096_1_0_0_1_n_n.rhsIdx j κ 0).val = (κ ⟨0, by decide⟩).val :=
  dot_S512x15_S15x4096_S512x4096_1_0_0_1_n_n.rhsIdx_val_of_single rfl j κ

theorem rhs_col (j : S512x4096.Idx) (κ : dot_S512x15_S15x4096_S512x4096_1_0_0_1_n_n.contr.Idx) : (dot_S512x15_S15x4096_S512x4096_1_0_0_1_n_n.rhsIdx j κ 1).val = (j 1).val := by
  unfold DotDims.rhsIdx
  rw [dif_neg (show ¬(1 : Fin S15x4096.rank) ∈ dot_S512x15_S15x4096_S512x4096_1_0_0_1_n_n.rhsBatch by decide), dif_pos (show (1 : Fin S15x4096.rank) ∈ dot_S512x15_S15x4096_S512x4096_1_0_0_1_n_n.rhsNonContracting by decide)]
  rfl

/-- The tile product from a zero accumulator, at (p, q): row p of the left block against column q of the right. -/
theorem product_apply (l : FVec Ideal S512x15 .bf16) (r : FVec Ideal S15x4096 .bf16) (p : Fin 512) (q : Fin 4096) :
    matmul dot_S512x15_S15x4096_S512x4096_1_0_0_1_n_n none l r (constant (F := Ideal) S512x4096 .f32 0x00000000#32) (ix2 p q)
      = ∑ k : Fin 15, l (ix2 p k) * r (ix2 k q) := by
  refine (Ideal.matmul_constant_zero_apply dot_S512x15_S15x4096_S512x4096_1_0_0_1_n_n none l r (ix2 p q)).trans ?_
  rw [← Equiv.sum_comp (contrEquiv1 dot_S512x15_S15x4096_S512x4096_1_0_0_1_n_n 15 rfl rfl).symm]
  refine Finset.sum_congr rfl fun k _ => ?_
  have hk := contrEquiv1_symm_val dot_S512x15_S15x4096_S512x4096_1_0_0_1_n_n 15 rfl rfl k
  have el : dot_S512x15_S15x4096_S512x4096_1_0_0_1_n_n.lhsIdx (ix2 p q) ((contrEquiv1 dot_S512x15_S15x4096_S512x4096_1_0_0_1_n_n 15 rfl rfl).symm k) = ix2 p k := funext fun a => Fin.ext (by
    match a with
    | ⟨0, _⟩ => exact lhs_row _ _
    | ⟨1, _⟩ => exact (lhs_feature _ _).trans hk)
  have er : dot_S512x15_S15x4096_S512x4096_1_0_0_1_n_n.rhsIdx (ix2 p q) ((contrEquiv1 dot_S512x15_S15x4096_S512x4096_1_0_0_1_n_n 15 rfl rfl).symm k) = ix2 k q := funext fun a => Fin.ext (by
    match a with
    | ⟨0, _⟩ => exact (rhs_feature _ _).trans hk
    | ⟨1, _⟩ => exact rhs_col _ _)
  rw [el, er]

/-- The bias row repeated down the rows: element (p, q) is the row's element (0, q). -/
theorem biasRows_apply (b : FVec Ideal S1x4096 .f32) (h : S1x4096.Broadcasts S512x4096) (p : Fin 512) (q : Fin 4096) :
    broadcastTo S512x4096 b h (ix2 p q) = b (ix2 0 q) :=
  broadcastTo_apply b h (ix2 p q) (ix2 0 q) fun a => match a with
    | ⟨0, _⟩ => by show 0 = if (1 : Nat) = 1 then 0 else _; rw [if_pos rfl]
    | ⟨1, _⟩ => by show q.val = if (4096 : Nat) = 1 then 0 else _; rw [if_neg (by decide)]; rfl

/-- What the body stores, at (p, q) of the tile. -/
theorem stored_apply (x : Vec Ideal S512x15 .f32) (w : Vec Ideal S15x4096 .bf16) (b : Vec Ideal S1x4096 .f32)
    (p : Fin 512) (q : Fin 4096) :
    k0_pay1 x w b (ix2 p q) = (∑ k : Fin 15, x (ix2 p k) * w (ix2 k q)) + b (ix2 0 q) := by
  unfold k0_pay1
  refine (addf_apply _ _ _).trans ?_
  refine congrArg₂ (fun a c : EReal => a + c) ?_ ?_
  · refine (product_apply _ _ p q).trans ?_
    rw [shapeCast_self]
    rfl
  · rw [shapeCast_self]
    exact biasRows_apply b _ p q

end Cert.KernelIdeal.Tile

end
-- ==== Proof.TileStored.lean ====
/-
  What the kernel body leaves in the output tile's staging buffer, for any float values: the body has one store, of the
  whole 512 × 4096 tile, and its value is the tile formula of Skeleton.lean's payload applied to the three things the
  body loaded — the inputs' row block whole, the bias chunk whole, and of the RESIDENT masked-weight array (all 49152
  columns stay in the staging buffer for the whole grid) only the 15 × 4096 column chunk that starts at column
  4096 · j, j the point's second grid coordinate.
-/
import proofs.«102329_j25434796327642_2_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The column chunk of the resident weight array that the body loads at grid coordinates `i`. -/
def weightChunk (i : grid0.Coords) (w : Vec F S15x49152 .bf16) : Vec F S15x4096 .bf16 :=
  View.ld w (Rect.unit (s := S15x49152) (k0_off1 i) S15x4096.size (Facts₀.k0_off1_inb i))

/-- The one store's value, over the loaded blocks. -/
theorem stored_eq (c : Dev nD) (i : grid0.Coords) (a2 : Memref sig .tc .vmem S512x15 .f32) (h2 : a2.IsWhole)
    (a3 : Memref sig .tc .vmem S15x49152 .bf16) (h3 : a3.IsWhole) (a4 : Memref sig .tc .vmem S1x4096 .f32) (h4 : a4.IsWhole)
    (a5 : Memref sig .tc .vmem S512x4096 .f32) (h5 : a5.IsWhole)
    (x : Vec F S512x15 .f32) (w : Vec F S15x49152 .bf16) (b : Vec F S1x4096 .f32) :
    out0_A_3 c i a2 h2 a3 h3 a4 h4 a5 h5 x w b = k0_pay1 x (weightChunk i w) b := by
  unfold out0_A_3
  rw [View.read_writes_eq_canon _ _ _ (cover0_A_3 c i a2 h2 a3 h3 a4 h4 a5 h5 x w b)]
  unfold kernelRun0_A
  dsimp only
  rw [View.canon_unit_zero hz]
  simp only [View.readAt_eq_ld, h2.read_unread, h3.read_unread, h4.read_unread, View.ld_unit_zero (S := S512x15) hz,
    View.ld_unit_zero (S := S1x4096) hz]
  rfl

end Cert.KernelIdeal.Tile

end
-- ==== Proof.LayerValue.lean ====
/-
  The kernel's result array is the masked dense layer of the four arguments.
  Before the grid runs, the host forms the masked weights w[k, u] · mask[u, k] (the mask read transposed), narrows
  them to the matrix unit's input format — no change on the extended reals — and lays the bias out as one row of
  49152 entries. The grid has 4 × 12 points; point (i, j) takes rows 512·i … 512·i + 511 of the inputs, the column
  chunk 4096·j … 4096·j + 4095 of the resident masked weights and of the bias row, and writes tile (i, j) of the
  output. So what a point writes back is the layer restricted to its tile, the 48 tiles cover the 2048 × 49152 array
  (row r lies in tile row r / 512, column u in tile column u / 4096), and the array ends holding the layer.
-/
import proofs.«102329_j25434796327642_2_alg».proof.Proof.Gen.KernelIdeal.Value
import proofs.«102329_j25434796327642_2_alg».proof.Proof.MaskedDense
import proofs.«102329_j25434796327642_2_alg».proof.Proof.Tile
import proofs.«102329_j25434796327642_2_alg».proof.Proof.TileStored
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Tile Cert.MaskedDense

variable (m : (ℓ : Loc nD τ sig) → Buf (Elt Ideal) ℓ) (ρ : Dev nD → PrngReg)

/-- The layer of the four argument arrays as launched, on core `c`. -/
abbrev layer (c : Dev nD) : FVec Ideal ⟨2, ![2048, 49152]⟩ .f32 :=
  out (m ((c : Thread nD τ).loc main_arg0)) (m ((c : Thread nD τ).loc main_arg1)) (m ((c : Thread nD τ).loc main_arg2))
    (m ((c : Thread nD τ).loc main_arg3))

/-! ## What the region finds in the arrays the host prepared -/

/-- The resident weight array at (k, u) is the masked weight. -/
theorem weights_apply (c : Dev nD) (k : Fin 15) (u : Fin 49152) :
    V m c main_v2 (ix2 k u)
      = maskedWeight (m ((c : Thread nD τ).loc main_arg1)) (m ((c : Thread nD τ).loc main_arg3)) k u := by
  have e : @Eq (FVec Ideal S15x49152 .bf16) (V m c main_v2)
      (truncf (F := Ideal) .bf16 (mulf (F := Ideal) (m ((c : Thread nD τ).loc main_arg1))
          (transpose S15x49152 [1, 0] (m ((c : Thread nD τ).loc main_arg3)) Facts₀.transposes_S49152x15_S15x49152_1_0))
          Facts₀.bitsLt_bf16_f32) := by
    dsimp only [Gen.V, Gen.hostOps0]; after_results
  have hT : transpose S15x49152 [1, 0] (m ((c : Thread nD τ).loc main_arg3)) Facts₀.transposes_S49152x15_S15x49152_1_0 (ix2 k u)
      = m ((c : Thread nD τ).loc main_arg3) (ix2 u k) :=
    transpose_apply [1, 0] (m ((c : Thread nD τ).loc main_arg3)) Facts₀.transposes_S49152x15_S15x49152_1_0 (ix2 k u) (ix2 u k)
      (fun b => match b with | ⟨0, _⟩ => rfl | ⟨1, _⟩ => rfl)
  rw [e]
  show @HMul.hMul EReal EReal EReal instHMul (m ((c : Thread nD τ).loc main_arg1) (ix2 k u))
      (transpose S15x49152 [1, 0] (m ((c : Thread nD τ).loc main_arg3)) Facts₀.transposes_S49152x15_S15x49152_1_0 (ix2 k u)) = _
  rw [hT]
  rfl

/-- The bias row at (0, u) is the bias at u. -/
theorem biasRow_apply (c : Dev nD) (u : Fin 49152) :
    V m c main_v3 (ix2 0 u) = m ((c : Thread nD τ).loc main_arg2) (ix1 u) := by
  have e : @Eq (FVec Ideal S1x49152 .f32) (V m c main_v3)
      (shapeCast S1x49152 (m ((c : Thread nD τ).loc main_arg2)) Facts₀.shapeCasts_S49152_S1x49152) := by
    dsimp only [Gen.V, Gen.hostOps0]; after_results; rfl
  rw [e]
  refine shapeCast_apply _ _ (ix2 0 u) (ix1 u) ?_
  rw [Shape.rowMajor_val_one, Shape.rowMajor_val_two]
  show u.val = 0 * 49152 + u.val
  omega

/-! ## One tile -/

/-- The column chunk of the resident weights at grid coordinates `i`, at (k, q), is the resident array at column
    4096 · (i 1) + q. -/
theorem weightChunk_apply (i : grid0.Coords) (w : Vec Ideal S15x49152 .bf16) (k : Fin 15) (q : Fin 4096) (u : Fin 49152)
    (hu : u.val = 4096 * (i 1).val + q.val) : weightChunk i w (ix2 k q) = w (ix2 k u) := by
  unfold weightChunk View.ld
  refine congrArg w (funext fun a => Fin.ext ?_)
  match a with
  | ⟨0, _⟩ => show k0_off1 i 0 + 1 * k.val = k.val; rw [k0_off1_eq]; show 0 + 1 * k.val = k.val; omega
  | ⟨1, _⟩ => show k0_off1 i 1 + 1 * q.val = u.val; rw [k0_off1_eq, hu]; show 4096 * (i 1).val + 1 * q.val = _; omega

/-- A tile's stored value at (p, q) is the layer's entry (r, u), whenever its three loaded blocks are the blocks of
    the inputs at row r, of the masked weights and of the bias at column u. -/
theorem tile_entry (i : grid0.Coords) (x : Vec Ideal S512x15 .f32) (w : Vec Ideal S15x49152 .bf16) (b : Vec Ideal S1x4096 .f32)
    (X : FVec Ideal ⟨2, ![2048, 15]⟩ .f32) (W : FVec Ideal ⟨2, ![15, 49152]⟩ .f32) (B : FVec Ideal ⟨1, ![49152]⟩ .f32)
    (M : FVec Ideal ⟨2, ![49152, 15]⟩ .f32) (p : Fin 512) (q : Fin 4096) (r : Fin 2048) (u : Fin 49152)
    (hu : u.val = 4096 * (i 1).val + q.val)
    (hx : ∀ k : Fin 15, x (ix2 p k) = X (ix2 r k))
    (hw : ∀ k : Fin 15, w (ix2 k u) = maskedWeight W M k u)
    (hb : b (ix2 0 q) = B (ix1 u)) :
    k0_pay1 x (weightChunk i w) b (ix2 p q) = entry X W B M r u := by
  rw [stored_apply, hb]
  unfold entry
  refine congrArg (· + B (ix1 u)) (Finset.sum_congr rfl fun k _ => ?_)
  rw [hx k, weightChunk_apply i w k q u hu, hw k]

/-! ## The grid -/

/-- The printed index maps, decided over the 48 points: the inputs' block moves with the output tile's row, the
    bias chunk with its column, the weights stay; the second grid coordinate is the tile's column. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2)
    ∧ (grid0.coords t 1).val = win0_3.index t (1 : Fin 2)
    ∧ win0_3.index t (0 : Fin 2) ≤ 3 ∧ win0_3.index t (1 : Fin 2) ≤ 11 :=
  (by decide +kernel : ∀ t : Fin grid0.N, _)

/-- Every tile is some point's. -/
theorem idx_onto : ∀ (q0 : Fin 4) (q1 : Fin 12), ∃ t : Fin cfg0.N, win0_3.index t = ![q0.val, q1.val] :=
  (by decide +kernel : ∀ (q0 : Fin 4) (q1 : Fin 12), ∃ t : Fin grid0.N, win0_3.index t = ![q0.val, q1.val])

/-- What point `t` writes back is its tile of the layer. -/
theorem flushed_eq (c : Dev nD) (t : Fin cfg0.N) :
    (dats m 0 c).flushed 3 t = ((cfg0.win 3).blk t).view.read (Elt Ideal) (layer m c) := by
  rw [Cert.KernelIdeal.Value.flushed3_A, stored_eq]
  obtain ⟨e00, e01, e10, e11, e20, e21, ej, b0, b1⟩ := idx_facts t
  funext y
  obtain ⟨p, q, rfl⟩ : ∃ (p : Fin 512) (q : Fin 4096), y = ix2 p q := ⟨y 0, y 1, eq_ix2 y⟩
  have hp : p.val < 512 := p.isLt
  have hq : q.val < 4096 := q.isLt
  have hr : win0_3.index t (0 : Fin 2) * 512 + p.val < 2048 := by omega
  have hu : win0_3.index t (1 : Fin 2) * 4096 + q.val < 49152 := by omega
  have hemb : ((cfg0.win 3).blk t).view.emb (ix2 p q)
      = ix2 (⟨win0_3.index t (0 : Fin 2) * 512 + p.val, hr⟩ : Fin 2048) (⟨win0_3.index t (1 : Fin 2) * 4096 + q.val, hu⟩ : Fin 49152) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 4096 + 1 * q.val = win0_3.index t (1 : Fin 2) * 4096 + q.val; omega
  show k0_pay1 (iblk m c 0 t) (weightChunk (grid0.coords t) (iblk m c 1 t)) (iblk m c 2 t) (ix2 p q)
    = layer m c (((cfg0.win 3).blk t).view.emb (ix2 p q))
  rw [hemb]
  refine (tile_entry (grid0.coords t) (iblk m c 0 t) (iblk m c 1 t) (iblk m c 2 t)
    (m ((c : Thread nD τ).loc main_arg0)) (m ((c : Thread nD τ).loc main_arg1)) (m ((c : Thread nD τ).loc main_arg2))
    (m ((c : Thread nD τ).loc main_arg3)) p q ⟨win0_3.index t (0 : Fin 2) * 512 + p.val, hr⟩
    ⟨win0_3.index t (1 : Fin 2) * 4096 + q.val, hu⟩ ?_ ?_ ?_ ?_).trans
    (out_apply (m ((c : Thread nD τ).loc main_arg0)) (m ((c : Thread nD τ).loc main_arg1)) (m ((c : Thread nD τ).loc main_arg2))
      (m ((c : Thread nD τ).loc main_arg3)) ⟨win0_3.index t (0 : Fin 2) * 512 + p.val, hr⟩
      ⟨win0_3.index t (1 : Fin 2) * 4096 + q.val, hu⟩).symm
  · show win0_3.index t (1 : Fin 2) * 4096 + q.val = 4096 * (grid0.coords t 1).val + q.val
    rw [ej]; omega
  · intro k
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 15 + 1 * k.val = k.val; omega
  · intro k
    show V m c main_v2 (((cfg0.win 1).blk t).view.emb (ix2 k ⟨win0_3.index t (1 : Fin 2) * 4096 + q.val, hu⟩)) = _
    rw [← weights_apply m c k ⟨win0_3.index t (1 : Fin 2) * 4096 + q.val, hu⟩]
    refine congrArg (V m c main_v2) (funext fun a => Fin.ext ?_)
    match a with
    | ⟨0, _⟩ => show win0_1.index t (0 : Fin 2) * 15 + 1 * k.val = k.val; omega
    | ⟨1, _⟩ => show win0_1.index t (1 : Fin 2) * 49152 + 1 * (win0_3.index t (1 : Fin 2) * 4096 + q.val) = win0_3.index t (1 : Fin 2) * 4096 + q.val; omega
  · show V m c main_v3 (((cfg0.win 2).blk t).view.emb (ix2 0 q)) = _
    rw [← biasRow_apply m c ⟨win0_3.index t (1 : Fin 2) * 4096 + q.val, hu⟩]
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 4096 + 1 * q.val = win0_3.index t (1 : Fin 2) * 4096 + q.val; omega

/-- An index of the array is in point `t`'s tile iff each coordinate is in the tile's range on its axis. -/
theorem mem_tile (t : Fin cfg0.N) (i : S2048x49152.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v4).slice (win0_3.rect t)).set ↔ _
  rw [View.set_slice_whole, Rect.mem_set_unit]
  exact Iff.rfl

/-- The 48 tiles cover the array. -/
theorem covered (i : S2048x49152.Idx) :
    ∃ t : Fin cfg0.N, (cfg0.win 3).flush t = true ∧ i ∈ ((cfg0.win 3).blk t).view.set := by
  have hi0 : (i 0).val < 2048 := (i 0).isLt
  have hi1 : (i 1).val < 49152 := (i 1).isLt
  obtain ⟨t, ht⟩ := idx_onto ⟨(i 0).val / 512, by omega⟩ ⟨(i 1).val / 4096, by omega⟩
  have q0 : win0_3.index t (0 : Fin 2) = (i 0).val / 512 := congrFun ht 0
  have q1 : win0_3.index t (1 : Fin 2) = (i 1).val / 4096 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The result array after the run is the layer. -/
theorem final (c : Dev nD) : (dats m 0 c).arrAt 3 cfg0.N = layer m c :=
  (dats m 0 c).arrAt_eq_of_cover 3 (layer m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Layer

end
-- ==== Proof.lean ====
/-
  A masked dense layer, computed tile by tile, against its plain formula.

  Both programs compute, for a batch row r < 2048 and an output unit u < 49152,

      out[r, u] = (Σ_k x[r, k] · (w[k, u] · mask[u, k])) + b[u],      k over the fifteen input features,

  the mask stored unit-major and read transposed. The reference forms the masked weights, takes one matrix product
  and adds the bias spread over the rows. The kernel forms the same masked weights on the host, narrows them to the
  matrix unit's input format and keeps all 49152 columns resident; its 4 × 12 grid points each take 512 rows of the
  inputs and the 4096-column chunk of the weights and of the bias that their second coordinate names, multiply from a
  zero accumulator and add the bias chunk to every row. On the extended reals a change of float format is the
  identity and a product accumulated from zero is the plain sum, so each tile is the layer restricted to it
  (Proof/Tile.lean, Proof/TileStored.lean), the 48 tiles cover the result array (Proof/LayerValue.lean), and the
  reference's stages read at an index are the same formula (Proof/RefValue.lean). The two sides agree summand by
  summand: no rearrangement of the sum, and no use of the inputs' finiteness, is needed.

  The kernel's idealization rewrites nothing, so that conjunct is trivial; the three frame conjuncts are the runs
  themselves with their value parts dropped.
-/
import proofs.«102329_j25434796327642_2_alg».proof.Defs
import proofs.«102329_j25434796327642_2_alg».proof.Proof.Gen.Kernel
import proofs.«102329_j25434796327642_2_alg».proof.Proof.Gen.Kernel.Skeleton
import proofs.«102329_j25434796327642_2_alg».proof.Proof.Gen.Kernel.Launch
import proofs.«102329_j25434796327642_2_alg».proof.Proof.Gen.Kernel.Points
import proofs.«102329_j25434796327642_2_alg».proof.Proof.Gen.Kernel.Frame
import proofs.«102329_j25434796327642_2_alg».proof.Proof.Gen.KernelIdeal
import proofs.«102329_j25434796327642_2_alg».proof.Proof.Gen.KernelIdeal.Skeleton
import proofs.«102329_j25434796327642_2_alg».proof.Proof.Gen.KernelIdeal.Launch
import proofs.«102329_j25434796327642_2_alg».proof.Proof.Gen.KernelIdeal.Points
import proofs.«102329_j25434796327642_2_alg».proof.Proof.Gen.KernelIdeal.Frame
import proofs.«102329_j25434796327642_2_alg».proof.Proof.Gen.ReferenceIdeal
import proofs.«102329_j25434796327642_2_alg».proof.Proof.Gen.Pre_finite_inputs
import proofs.«102329_j25434796327642_2_alg».proof.Proof.Gen.KernelIdeal.Value
import proofs.«102329_j25434796327642_2_alg».proof.Proof.Gen.ReferenceIdeal.Run
import proofs.«102329_j25434796327642_2_alg».proof.Proof.Gen.ReferenceIdeal.Read
import proofs.«102329_j25434796327642_2_alg».proof.Proof.RefValue
import proofs.«102329_j25434796327642_2_alg».proof.Proof.LayerValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is six host operations in a row; its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals the kernel's result array and the reference's result are both the masked dense layer of
    arguments that agree. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
